-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S1x4096 : Shape := ⟨2, ![1, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096x4096 .f32) (main_arg3 : FVec F S1x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S4096x4096, .bf16⟩
  | .hbm, ⟨6, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one grid point leaves behind, as values.

  The body keeps a [1024, 1024] accumulator in scratch. At the first point of a run of eight (k = 0) it stores the
  zero block, reads it back and adds the product of the point's x block and weight block; at every later point it
  adds the product to what the point before left; at the last point (k = 7) it also stores
  max(accumulator + bias row, 0) into the output block. Each of these is one store through the whole buffer, so the
  buffer ends holding exactly that store's value: the statements below, for any float instance.
-/
import proofs.«176659_j11106785427704_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

/-- The zero offsets of a rank-2 rectangle, as the constant function. -/
theorem hz : (![0, 0] : Fin 2 → Nat) = fun _ => 0 := funext fun a => by fin_cases a <;> rfl

/-- A middle point (0 < k < 7): the accumulator ends at (what it held) + (x block) · (weight block). -/
theorem scratch_mid (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .f32) (x1 : Vec F S512x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 xs0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg7.read_unread,
    View.ld_unit_zero (S := S1024x512) hz, View.ld_unit_zero (S := S512x1024) hz, View.ld_unit_zero (S := S1024x1024) hz]

/-- The first point of a run (k = 0): the accumulator ends at (the zero block) + (x block) · (weight block). -/
theorem scratch_first (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .f32) (x1 : Vec F S512x1024 .bf16) (x2 : Vec F S1x1024 .f32) :
    sout0_A_0 c i arg3 harg3 arg4 harg4 arg5 harg5 arg6 harg6 arg7 harg7 hc0 hc1 x0 x1 x2 = k0_pay2 x0 k0_pay1 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread,
    View.ld_unit_zero (S := S1024x512) hz, View.ld_unit_zero (S := S512x1024) hz]

/-- The last point of a run (k = 7): the accumulator ends at (what it held) + (x block) · (weight block), as at a
    middle point. -/
theorem scratch_last (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S512x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 xs0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread,
    View.ld_unit_zero (S := S1024x512) hz, View.ld_unit_zero (S := S512x1024) hz, View.ld_unit_zero (S := S1024x1024) hz]

/-- The last point of a run (k = 7): the output block ends at max(accumulator after this point + bias row, 0). -/
theorem out_last (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S512x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 xs0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg7.read_unread,
    View.ld_unit_zero (S := S1024x512) hz, View.ld_unit_zero (S := S512x1024) hz, View.ld_unit_zero (S := S1024x1024) hz,
    View.ld_unit_zero (S := S1x1024) hz]

end Cert.KernelIdeal.Pieces

end
-- ==== Proof.PayIdeal.lean ====
/-
  The body's three stored values read at one entry, over the extended reals.

  With every float an extended real and every operation exact, a change of float format is the identity and the
  matrix unit into a zero tile is the plain sum of products. So at row p, column q of the [1024, 1024] tile:
    the reset value is 0;
    the accumulator's new value is (its old value) + Σ_{s < 512} x[p, s] · w[s, q];
    the output value is max((accumulator) + bias[0, q], 0).
-/
import proofs.«176659_j11106785427704_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.PayIdeal

open Cert.KernelIdeal Cert.KernelIdeal.Gen

/-- The tile product's dimension numbers: [1024, 512] × [512, 1024], contracting the 512 axis. -/
abbrev tileDot : DotDims S1024x512 S512x1024 S1024x1024 := dot_S1024x512_S512x1024_S1024x1024_1_0_0_1_n_n

/-- The left operand's row is the output's row. -/
theorem lhs_row (j : S1024x1024.Idx) (k : tileDot.contr.Idx) : (tileDot.lhsIdx j k 0).val = (j 0).val := by
  unfold DotDims.lhsIdx
  rw [dif_neg (show ¬(0 : Fin S1024x512.rank) ∈ tileDot.lhsBatch by decide),
    dif_pos (show (0 : Fin S1024x512.rank) ∈ tileDot.lhsNonContracting by decide)]
  rfl

/-- The right operand's column is the output's column. -/
theorem rhs_col (j : S1024x1024.Idx) (k : tileDot.contr.Idx) : (tileDot.rhsIdx j k 1).val = (j 1).val := by
  unfold DotDims.rhsIdx
  rw [dif_neg (show ¬(1 : Fin S512x1024.rank) ∈ tileDot.rhsBatch by decide),
    dif_pos (show (1 : Fin S512x1024.rank) ∈ tileDot.rhsNonContracting by decide)]
  rfl

/-- The tile product into the zero tile, at (p, q): Σ_s l[p, s] · r[s, q]. -/
theorem tile_product_apply (l : FVec Ideal S1024x512 .bf16) (r : FVec Ideal S512x1024 .bf16) (p q : Fin 1024) :
    matmul tileDot none l r (constant (F := Ideal) S1024x1024 .f32 0x00000000#32) (ix2 p q)
      = ∑ s : Fin 512, l (ix2 p s) * r (ix2 s q) := by
  simp only [matmul]
  rw [Ideal.matmul_constant_zero_apply, ← Equiv.sum_comp (contrEquiv1 tileDot 512 rfl rfl).symm]
  refine Finset.sum_congr rfl fun s _ => ?_
  have hk := contrEquiv1_symm_val tileDot 512 rfl rfl s
  have el : tileDot.lhsIdx (ix2 p q) ((contrEquiv1 tileDot 512 rfl rfl).symm s) = ix2 p s := funext fun a => Fin.ext (by
    match a with
    | ⟨0, _⟩ => exact lhs_row _ _
    | ⟨1, _⟩ => exact (tileDot.lhsIdx_val_of_single rfl _ _).trans hk)
  have er : tileDot.rhsIdx (ix2 p q) ((contrEquiv1 tileDot 512 rfl rfl).symm s) = ix2 s q := funext fun a => Fin.ext (by
    match a with
    | ⟨0, _⟩ => exact (tileDot.rhsIdx_val_of_single rfl _ _).trans hk
    | ⟨1, _⟩ => exact rhs_col _ _)
  rw [el, er]

/-- The reset value: zero everywhere. -/
theorem reset_apply (j : S1024x1024.Idx) : k0_pay1 (F := Ideal) j = 0 := by
  unfold k0_pay1
  simp only [shapeCast_self]
  exact Ideal.ofBits_zero_f32

/-- The accumulator's new value at (p, q): its old value there plus Σ_s x[p, s] · w[s, q]. -/
theorem accumulate_apply (x : FVec Ideal S1024x512 .f32) (acc : FVec Ideal S1024x1024 .f32) (w : FVec Ideal S512x1024 .bf16)
    (p q : Fin 1024) :
    k0_pay2 (F := Ideal) x acc w (ix2 p q) = acc (ix2 p q) + ∑ s : Fin 512, x (ix2 p s) * w (ix2 s q) := by
  unfold k0_pay2
  simp only [shapeCast_self]
  exact congrArg (acc (ix2 p q) + ·) (tile_product_apply (truncf .bf16 x bitsLt_bf16_f32) w p q)

/-- The output value at (p, q): max(accumulator there + bias[0, q], 0). -/
theorem output_apply (a : FVec Ideal S1024x1024 .f32) (b : FVec Ideal S1x1024 .f32) (p q : Fin 1024) :
    k0_pay3 (F := Ideal) a b (ix2 p q) = max (a (ix2 p q) + b (ix2 (0 : Fin 1) q)) (Ideal.ofBits .f32 0x00000000#32) := by
  unfold k0_pay3
  have hb : broadcastTo S1024x1024 b broadcasts_S1x1024_S1024x1024 (ix2 p q) = b (ix2 (0 : Fin 1) q) :=
    broadcastTo_apply b broadcasts_S1x1024_S1024x1024 (ix2 p q) (ix2 (0 : Fin 1) q) (fun a => match a with
      | ⟨0, _⟩ => by show 0 = if (1 : Nat) = 1 then 0 else _; rw [if_pos rfl]
      | ⟨1, _⟩ => by show q.val = if (1024 : Nat) = 1 then 0 else q.val; rw [if_neg (by decide)])
  show max (a (ix2 p q) + broadcastTo S1024x1024 b broadcasts_S1x1024_S1024x1024 (ix2 p q)) _ = _
  rw [hb]
  rfl

end Cert.KernelIdeal.PayIdeal

end
-- ==== Proof.Accum.lean ====
/-
  The accumulator after a grid point.

  Write a point as t = 8·g + k. Over the eight points of a run (fixed g) the accumulator is reset at k = 0 and then
  grows by one tile product per point, so after point t it holds, at (p, q),
      0 + Σ_{k' ≤ k} Σ_{s < 512} (x block of point 8g + k')[p, s] · (weight block of point 8g + k')[s, q].
-/
import proofs.«176659_j11106785427704_2_alg».proof.Proof.Gen.KernelIdeal.Value
import proofs.«176659_j11106785427704_2_alg».proof.Proof.Pieces
import proofs.«176659_j11106785427704_2_alg».proof.Proof.PayIdeal

noncomputable section

open Idealize.ShloMosaic Idealize.ShloMosaic.TcCoe Idealize.SL.Sem Idealize.ShloMosaic.ValueIdx

namespace Cert.KernelIdeal.Accum

open Cert.KernelIdeal Cert.KernelIdeal.Gen

variable (m : (ℓ : Loc nD τ sig) → Buf (Elt Ideal) ℓ)

/-- One tile product at (p, q): Σ_s x[p, s] · w[s, q]. -/
def tileTerm (x : FVec Ideal S1024x512 .f32) (w : FVec Ideal S512x1024 .bf16) (p q : Fin 1024) : EReal :=
  ∑ s : Fin 512, x (ix2 p s) * w (ix2 s q)

/-- What point n adds to the accumulator at entry y: the tile product of its two blocks (zero past the grid,
    where it is never used). -/
def addend (c : Dev nD) (n : ℕ) (y : S1024x1024.Idx) : EReal :=
  if h : n < cfg0.N then
    tileTerm (iblk m c 0 ⟨n, h⟩) (iblk m c 1 ⟨n, h⟩) ⟨(y 0).val, idx2_lt0 y⟩ ⟨(y 1).val, idx2_lt1 y⟩
  else 0

theorem addend_apply (c : Dev nD) (n : ℕ) (h : n < cfg0.N) (p q : Fin 1024) :
    addend m c n (ix2 p q) = tileTerm (iblk m c 0 ⟨n, h⟩) (iblk m c 1 ⟨n, h⟩) p q := by
  unfold addend
  rw [dif_pos h]

/-- A run's first point: whatever the accumulator held, it ends at 0 + (this point's tile product). -/
theorem step_first (c : Dev nD) (n : ℕ) (hb : n < cfg0.N) (h0 : n % 8 = 0) (acc : Vec Ideal S1024x1024 .f32)
    (y : S1024x1024.Idx) : Value.scAt0_0 m c n hb acc y = 0 + addend m c n y := by
  have h1 : ¬n % 8 = 7 := by omega
  obtain ⟨p, q, rfl⟩ : ∃ (p q : Fin 1024), y = ix2 p q := ⟨y 0, y 1, eq_ix2 y⟩
  rw [addend_apply m c n hb p q]
  unfold Value.scAt0_0
  rw [dif_pos h0, dif_neg h1]
  refine (congrFun (Pieces.scratch_first (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) ((hcond0_0 ⟨n, hb⟩).mpr h0) (fun h => h1 ((hcond0_1 ⟨n, hb⟩).mp h)) (iblk m c 0 ⟨n, hb⟩) (iblk m c 1 ⟨n, hb⟩) (iblk m c 2 ⟨n, hb⟩)) (ix2 p q)).trans ?_
  refine (PayIdeal.accumulate_apply (iblk m c 0 ⟨n, hb⟩) k0_pay1 (iblk m c 1 ⟨n, hb⟩) p q).trans ?_
  rw [PayIdeal.reset_apply]
  rfl

/-- Every later point of a run: the accumulator grows by this point's tile product. -/
theorem step_next (c : Dev nD) (n : ℕ) (hb : n < cfg0.N) (h0 : ¬n % 8 = 0) (acc : Vec Ideal S1024x1024 .f32)
    (y : S1024x1024.Idx) : Value.scAt0_0 m c n hb acc y = acc y + addend m c n y := by
  obtain ⟨p, q, rfl⟩ : ∃ (p q : Fin 1024), y = ix2 p q := ⟨y 0, y 1, eq_ix2 y⟩
  rw [addend_apply m c n hb p q]
  unfold Value.scAt0_0
  rw [dif_neg h0]
  by_cases h1 : n % 8 = 7
  · rw [dif_pos h1]
    refine (congrFun (Pieces.scratch_last (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) (fun h => h0 ((hcond0_0 ⟨n, hb⟩).mp h)) ((hcond0_1 ⟨n, hb⟩).mpr h1) (iblk m c 0 ⟨n, hb⟩) (iblk m c 1 ⟨n, hb⟩) (iblk m c 2 ⟨n, hb⟩) acc) (ix2 p q)).trans ?_
    exact PayIdeal.accumulate_apply (iblk m c 0 ⟨n, hb⟩) acc (iblk m c 1 ⟨n, hb⟩) p q
  · rw [dif_neg h1]
    refine (congrFun (Pieces.scratch_mid (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) (fun h => h0 ((hcond0_0 ⟨n, hb⟩).mp h)) (fun h => h1 ((hcond0_1 ⟨n, hb⟩).mp h)) (iblk m c 0 ⟨n, hb⟩) (iblk m c 1 ⟨n, hb⟩) (iblk m c 2 ⟨n, hb⟩) acc) (ix2 p q)).trans ?_
    exact PayIdeal.accumulate_apply (iblk m c 0 ⟨n, hb⟩) acc (iblk m c 1 ⟨n, hb⟩) p q

/-- The accumulator after point t: zero plus the tile products of the points of its run up to t. -/
theorem scratch_after (c : Dev nD) (t : Fin cfg0.N) (y : S1024x1024.Idx) :
    (outsAt0 m c t.val t.isLt).2 y
      = 0 + ∑ s ∈ Finset.range (t.val % 8 + 1), addend m c (8 * (t.val / 8) + s) y := by
  rw [Value.soutsAt0_0_eq m c t]
  exact Pipeline.accAt_add_apply (fun n h => Value.scAt0_0 m c n h (VS0_0.read (Elt Ideal) VS0_0.junk)) (Value.scAt0_0 m c)
    (fun _ => 0) (addend m c) (8 * (t.val / 8)) 7
    (fun h i => step_first m c _ h (by omega) _ i)
    (fun n h acc i hlt hle => step_next m c n h (by omega) acc i)
    (t.val % 8) (by omega) _ y

end Cert.KernelIdeal.Accum

end
-- ==== Proof.Blocks.lean ====
/-
  Which entries of the argument arrays a grid point's blocks hold.

  The grid is 8 × 4 × 8, the last axis fastest: point t has row-tile i = t / 32, column-tile j = (t / 8) % 4 and
  contraction block k = t % 8. Its x block is rows 1024·i …, columns 512·k … of x; its weight block is rows 512·k …,
  columns 1024·j … of the weight array; its bias block is columns 1024·j … of the one bias row; its output block is
  rows 1024·i …, columns 1024·j … of the result. The weight array is computed before the launch as the elementwise
  product kernel · window (then a change of float format, the identity on extended reals).
-/
import proofs.«176659_j11106785427704_2_alg».proof.Proof.Gen.KernelIdeal.Frame
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The four argument arrays on core c, as arrays of extended reals. -/
abbrev argX (c : Dev nD) : FVec Ideal S8192x4096 .f32 := m ((c : Thread nD τ).loc main_arg0)
abbrev argK (c : Dev nD) : FVec Ideal S4096x4096 .f32 := m ((c : Thread nD τ).loc main_arg1)
abbrev argW (c : Dev nD) : FVec Ideal S4096x4096 .f32 := m ((c : Thread nD τ).loc main_arg2)
abbrev argB (c : Dev nD) : FVec Ideal S1x4096 .f32 := m ((c : Thread nD τ).loc main_arg3)

/-- The grid has 256 points. -/
theorem lt_256 (t : Fin cfg0.N) : t.val < 256 := lt_of_lt_of_eq t.isLt (show cfg0.N = 256 from N_0)

/-- The four windows' block indices at point t, decided over the grid. -/
theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- Row p of the point's row tile, as a row of x and of the result. -/
def row (t : Fin cfg0.N) (p : Fin 1024) : Fin 8192 :=
  ⟨t.val / 32 * 1024 + p.val, by have := lt_256 t; have := p.isLt; omega⟩

/-- Column q of the point's column tile, as a column of the weight, the bias and the result. -/
def col (t : Fin cfg0.N) (q : Fin 1024) : Fin 4096 :=
  ⟨t.val / 8 % 4 * 1024 + q.val, by have := q.isLt; omega⟩

/-- Entry s of the point's contraction block, as a column of x and a row of the weight. -/
def mid (t : Fin cfg0.N) (s : Fin 512) : Fin 4096 :=
  ⟨t.val % 8 * 512 + s.val, by have := s.isLt; omega⟩

/-- The weight array as the launch finds it: kernel · window entry by entry. -/
theorem weight_eq (c : Dev nD) :
    (V m c main_call0_v1 : FVec Ideal S4096x4096 .bf16)
      = truncf .bf16 (mulf (argK m c) (argW m c)) bitsLt_bf16_f32 := by
  dsimp only [Gen.V, Gen.hostOps0]
  after_results
  rfl

/-- The x block at (p, s). -/
theorem x_block_apply (c : Dev nD) (t : Fin cfg0.N) (p : Fin 1024) (s : Fin 512) :
    (iblk m c 0 t : FVec Ideal S1024x512 .f32) (ix2 p s) = argX m c (ix2 (row t p) (mid t s)) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = t.val / 32 * 1024 + p.val; rw [e0]; omega
  | ⟨1, _⟩ => show win0_0.index t (1 : Fin 2) * 512 + 1 * s.val = t.val % 8 * 512 + s.val; rw [e1]; omega

/-- The weight block at (s, q). -/
theorem w_block_apply (c : Dev nD) (t : Fin cfg0.N) (s : Fin 512) (q : Fin 1024) :
    (iblk m c 1 t : FVec Ideal S512x1024 .bf16) (ix2 s q)
      = argK m c (ix2 (mid t s) (col t q)) * argW m c (ix2 (mid t s) (col t q)) := by
  obtain ⟨-, -, e0, e1, -⟩ := idx_facts t
  unfold iblk
  rw [View.read_apply]
  show (V m c main_call0_v1 : FVec Ideal S4096x4096 .bf16) _ = _
  rw [weight_eq]
  have hi : ((cfg0.win 1).blk t).view.emb (ix2 s q) = ix2 (mid t s) (col t q) := funext fun a => Fin.ext (by
    match a with
    | ⟨0, _⟩ => show win0_1.index t (0 : Fin 2) * 512 + 1 * s.val = t.val % 8 * 512 + s.val; rw [e0]; omega
    | ⟨1, _⟩ => show win0_1.index t (1 : Fin 2) * 1024 + 1 * q.val = t.val / 8 % 4 * 1024 + q.val; rw [e1]; omega)
  rw [hi]
  rfl

/-- The bias block at (0, q). -/
theorem b_block_apply (c : Dev nD) (t : Fin cfg0.N) (q : Fin 1024) :
    (iblk m c 2 t : FVec Ideal S1x1024 .f32) (ix2 (0 : Fin 1) q) = argB m c (ix2 (0 : Fin 1) (col t q)) := by
  obtain ⟨-, -, -, -, e0, e1, -⟩ := idx_facts t
  unfold iblk
  rw [View.read_apply]
  show V m c main_arg3 _ = _
  rw [V_main_arg3]
  refine congrArg _ (funext fun a => Fin.ext ?_)
  match a with
  | ⟨0, _⟩ => show win0_2.index t (0 : Fin 2) * 1 + 1 * 0 = 0; rw [e0]
  | ⟨1, _⟩ => show win0_2.index t (1 : Fin 2) * 1024 + 1 * q.val = t.val / 8 % 4 * 1024 + q.val; rw [e1]; omega

/-- Entry (p, q) of the output block sits at (row, col) of the result array. -/
theorem out_emb (t : Fin cfg0.N) (p q : Fin 1024) :
    ((cfg0.win 3).blk t).view.emb (ix2 p q) = ix2 (row t p) (col t q) := by
  obtain ⟨-, -, -, -, -, -, e0, e1⟩ := idx_facts t
  refine funext fun a => Fin.ext ?_
  match a with
  | ⟨0, _⟩ => show win0_3.index t (0 : Fin 2) * 1024 + 1 * p.val = t.val / 32 * 1024 + p.val; rw [e0]; omega
  | ⟨1, _⟩ => show win0_3.index t (1 : Fin 2) * 1024 + 1 * q.val = t.val / 8 % 4 * 1024 + q.val; rw [e1]; omega

end Cert.KernelIdeal.Blocks

end
-- ==== Proof.BlockSum.lean ====
/-
  A sum over `Fin (n * b)` is the sum, over the `n` blocks of length `b`, of each block's sum — in any
  commutative monoid, so in particular on the extended reals, where no finiteness is needed: only
  commutativity and associativity of `+` are used.
-/
import Mathlib

namespace Cert.BlockSum

/-- The index `q * b + r` of entry `r` of block `q`, below `n * b`. -/
theorem blk_lt {n b : ℕ} (q : Fin n) (r : Fin b) : q.val * b + r.val < n * b := by
  have hq : q.val + 1 ≤ n := q.isLt
  calc q.val * b + r.val < q.val * b + b := by have := r.isLt; omega
    _ = (q.val + 1) * b := by ring
    _ ≤ n * b := Nat.mul_le_mul_right b hq

/-- A sum over `n * b` consecutive indices, cut into `n` blocks of `b`. -/
theorem sum_blocks {M : Type*} [AddCommMonoid M] (n b : ℕ) (f : Fin (n * b) → M) :
    ∑ k : Fin (n * b), f k = ∑ q : Fin n, ∑ r : Fin b, f ⟨q.val * b + r.val, blk_lt q r⟩ := by
  rw [← Finset.sum_product', Finset.univ_product_univ]
  refine (Fintype.sum_equiv finProdFinEquiv.symm.symm _ _ ?_).symm
  intro x
  obtain ⟨q, r⟩ := x
  refine congrArg f (Fin.ext ?_)
  simp [finProdFinEquiv, Nat.mul_comm, Nat.add_comm]

end Cert.BlockSum
-- ==== Proof.Spec.lean ====
/-
  The result as one function of the four argument arrays, over the extended reals:

      G x k w b (r, c) = max( Σ_{j < 4096} x[r, j] · (k[j, c] · w[j, c]) + b[0, c] , 0 ).

  The contraction over 4096 is also the sum, over the 8 blocks of 512 consecutive j, of each block's partial sum
  (only commutativity and associativity of + are used, so no entry needs to be finite).
-/
import proofs.«176659_j11106785427704_2_alg».proof.Proof.BlockSum
import Idealize.ShloMosaic.Lib.ValueIdx
import Idealize.ShloMosaic.PureOps.Ideal

noncomputable section

open Idealize.ShloMosaic Idealize.ShloMosaic.ValueIdx

namespace Cert.Spec

/-- The shapes of x, of kernel and window, and of bias. -/
abbrev Sx : Shape := ⟨2, ![8192, 4096]⟩
abbrev Sk : Shape := ⟨2, ![4096, 4096]⟩
abbrev Sb : Shape := ⟨2, ![1, 4096]⟩

/-- Row r of x against column c of the masked weight k · w. -/
def rowDot (x : FVec Ideal Sx .f32) (k w : FVec Ideal Sk .f32) (r : Fin 8192) (c : Fin 4096) : EReal :=
  ∑ j : Fin 4096, x (ix2 r j) * (k (ix2 j c) * w (ix2 j c))

/-- The same product restricted to block kb of the contraction axis: j = 512·kb + s, s < 512. -/
def blockDot (x : FVec Ideal Sx .f32) (k w : FVec Ideal Sk .f32) (r : Fin 8192) (c : Fin 4096) (kb : Fin 8) : EReal :=
  ∑ s : Fin 512, x (ix2 r ⟨kb.val * 512 + s.val, BlockSum.blk_lt (n := 8) kb s⟩)
    * (k (ix2 ⟨kb.val * 512 + s.val, BlockSum.blk_lt (n := 8) kb s⟩ c) * w (ix2 ⟨kb.val * 512 + s.val, BlockSum.blk_lt (n := 8) kb s⟩ c))

/-- The contraction is the sum of its 8 block sums. -/
theorem rowDot_eq_blocks (x : FVec Ideal Sx .f32) (k w : FVec Ideal Sk .f32) (r : Fin 8192) (c : Fin 4096) :
    rowDot x k w r c = ∑ kb : Fin 8, blockDot x k w r c kb :=
  BlockSum.sum_blocks (M := EReal) 8 512 (fun j : Fin (8 * 512) => x (ix2 r j) * (k (ix2 j c) * w (ix2 j c)))

/-- The result array. -/
def G (x : FVec Ideal Sx .f32) (k w : FVec Ideal Sk .f32) (b : FVec Ideal Sb .f32) : FVec Ideal Sx .f32 := fun i =>
  max (rowDot x k w ⟨(i 0).val, idx2_lt0 i⟩ ⟨(i 1).val, idx2_lt1 i⟩ + b (ix2 (0 : Fin 1) ⟨(i 1).val, idx2_lt1 i⟩))
    (Ideal.ofBits .f32 0x00000000#32)

/-- G at an index given by its coordinates. -/
theorem G_apply (x : FVec Ideal Sx .f32) (k w : FVec Ideal Sk .f32) (b : FVec Ideal Sb .f32) (r : Fin 8192) (c : Fin 4096) :
    G x k w b (ix2 r c) = max (rowDot x k w r c + b (ix2 (0 : Fin 1) c)) (Ideal.ofBits .f32 0x00000000#32) := rfl

end Cert.Spec

end
-- ==== Proof.KernelValue.lean ====
/-
  The kernel's result array is G of its arguments.

  The output block (i, j) is written back once, at the last point of its run (k = 7). There the body stores
  max(accumulator + bias row, 0), and the accumulator holds 0 plus the eight tile products of the run: entry (p, q) of
  the k'-th product is the partial sum, over block k' of the contraction axis, of row 1024·i + p of x against column
  1024·j + q of kernel · window. The eight partial sums add up to the whole contraction, so the stored entry is G at
  (1024·i + p, 1024·j + q). Every entry of the result lies in exactly such a block, so the array ends at G.
-/
import proofs.«176659_j11106785427704_2_alg».proof.Proof.Accum
import proofs.«176659_j11106785427704_2_alg».proof.Proof.Blocks
import proofs.«176659_j11106785427704_2_alg».proof.Proof.Spec

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen

variable (m : (ℓ : Loc nD τ sig) → Buf (Elt Ideal) ℓ) (ρ : Dev nD → PrngReg)

/-- The tile product of a point of the run of t, at (p, q), is the partial sum over that point's contraction block
    of row (row t p) of x against column (col t q) of kernel · window. -/
theorem addend_eq_blockDot (c : Dev nD) (t : Fin cfg0.N) (kb : Fin 8) (p q : Fin 1024) :
    Accum.addend m c (8 * (t.val / 8) + kb.val) (ix2 p q)
      = Cert.Spec.blockDot (Blocks.argX m c) (Blocks.argK m c) (Blocks.argW m c) (Blocks.row t p) (Blocks.col t q) kb := by
  have ht := Blocks.lt_256 t
  have hkb := kb.isLt
  have hn : 8 * (t.val / 8) + kb.val < cfg0.N :=
    lt_of_lt_of_eq (by omega : 8 * (t.val / 8) + kb.val < 256) (show (256 : ℕ) = cfg0.N from N_0.symm)
  rw [Accum.addend_apply m c _ hn p q]
  unfold Accum.tileTerm Cert.Spec.blockDot
  refine Finset.sum_congr rfl fun s _ => ?_
  have hs := s.isLt
  have hp := p.isLt
  have hq := q.isLt
  have er : Blocks.row ⟨8 * (t.val / 8) + kb.val, hn⟩ p = Blocks.row t p :=
    Fin.ext (by show (8 * (t.val / 8) + kb.val) / 32 * 1024 + p.val = t.val / 32 * 1024 + p.val; omega)
  have ec : Blocks.col ⟨8 * (t.val / 8) + kb.val, hn⟩ q = Blocks.col t q :=
    Fin.ext (by show (8 * (t.val / 8) + kb.val) / 8 % 4 * 1024 + q.val = t.val / 8 % 4 * 1024 + q.val; omega)
  have em : Blocks.mid ⟨8 * (t.val / 8) + kb.val, hn⟩ s = ⟨kb.val * 512 + s.val, BlockSum.blk_lt (n := 8) kb s⟩ :=
    Fin.ext (by show (8 * (t.val / 8) + kb.val) % 8 * 512 + s.val = kb.val * 512 + s.val; omega)
  rw [Blocks.x_block_apply, Blocks.w_block_apply, er, ec, em]

/-- The eight tile products of a run add up to the whole contraction. -/
theorem run_sum (c : Dev nD) (t : Fin cfg0.N) (p q : Fin 1024) :
    ∑ s ∈ Finset.range 8, Accum.addend m c (8 * (t.val / 8) + s) (ix2 p q)
      = Cert.Spec.rowDot (Blocks.argX m c) (Blocks.argK m c) (Blocks.argW m c) (Blocks.row t p) (Blocks.col t q) := by
  rw [Cert.Spec.rowDot_eq_blocks, Finset.sum_range]
  exact Finset.sum_congr rfl fun kb _ => addend_eq_blockDot m c t kb p q

/-- What the last point of a run stores into the output block, at (p, q): G at the entry's place in the result. -/
theorem out_entry (c : Dev nD) (t : Fin cfg0.N) (h0 : ¬t.val % 8 = 0) (h1 : t.val % 8 = 7) (p q : Fin 1024) :
    out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
        (outsAt0 m c (t.val - 1) (Nat.lt_of_le_of_lt (Nat.sub_le _ _) t.isLt)).2 (ix2 p q)
      = (Cert.Spec.G (Blocks.argX m c) (Blocks.argK m c) (Blocks.argW m c) (Blocks.argB m c)) (ix2 (Blocks.row t p) (Blocks.col t q)) := by
  refine (congrFun (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2) (ix2 p q)).trans ?_
  have hs : k0_pay2 (iblk m c 0 t) (outsAt0 m c (t.val - 1) (Nat.lt_of_le_of_lt (Nat.sub_le _ _) t.isLt)).2 (iblk m c 1 t)
      = (outsAt0 m c t.val t.isLt).2 := by
    rw [outsAt0_C m c t h0 h1]
    dsimp only
    exact (Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2).symm
  rw [hs]
  refine (PayIdeal.output_apply (outsAt0 m c t.val t.isLt).2 (iblk m c 2 t) p q).trans ?_
  rw [Accum.scratch_after m c t (ix2 p q), h1, Blocks.b_block_apply, Cert.Spec.G_apply, zero_add]
  exact congrArg (fun z => max (z + Blocks.argB m c (ix2 (0 : Fin 1) (Blocks.col t q))) (Ideal.ofBits .f32 0x00000000#32))
    (run_sum m c t p q)

/-- An entry of the result is in point t's output block iff each coordinate is in the block's range. -/
theorem mem_blk (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v0).slice (win0_3.rect t)).set ↔ _
  rw [View.set_slice_whole, Rect.mem_set_unit]
  exact Iff.rfl

/-- What a writing-back point writes is its block of G. -/
theorem flushed_eq (c : Dev nD) (t : Fin cfg0.N) (hf : (cfg0.win 3).flush t = true) :
    (dats m 0 c).flushed 3 t = ((cfg0.win 3).blk t).view.read (Elt Ideal) (Cert.Spec.G (Blocks.argX m c) (Blocks.argK m c) (Blocks.argW m c) (Blocks.argB m c)) := by
  have h1 : t.val % 8 = 7 := (flush0_3 t).mp hf
  have h0 : ¬t.val % 8 = 0 := by omega
  rw [Value.flushed3_C m c t h0 h1]
  funext j
  obtain ⟨p, q, rfl⟩ : ∃ (p q : Fin 1024), j = ix2 p q := ⟨j 0, j 1, eq_ix2 j⟩
  rw [View.read_apply, Blocks.out_emb]
  exact out_entry m c t h0 h1 p q

/-- Every entry (r, c) of the result is in the output block of the last point of the run of its tile
    (r / 1024, c / 1024). -/
theorem covered (i : S8192x4096.Idx) :
    ∃ t : Fin cfg0.N, (cfg0.win 3).flush t = true ∧ i ∈ ((cfg0.win 3).blk t).view.set := by
  have hi0 : (i 0).val < 8192 := idx2_lt0 i
  have hi1 : (i 1).val < 4096 := idx2_lt1 i
  obtain ⟨tv, htv⟩ : ∃ tv : ℕ, tv = ((i 0).val / 1024 * 4 + (i 1).val / 1024) * 8 + 7 := ⟨_, rfl⟩
  have hN : tv < cfg0.N := lt_of_lt_of_eq (by omega : tv < 256) (show (256 : ℕ) = cfg0.N from N_0.symm)
  obtain ⟨-, -, -, -, -, -, e0, e1⟩ := Blocks.idx_facts ⟨tv, hN⟩
  refine ⟨⟨tv, hN⟩, (flush0_3 _).mpr (by show tv % 8 = 7; omega), ?_⟩
  rw [mem_blk]
  intro a
  match a with
  | ⟨0, _⟩ =>
    show win0_3.index ⟨tv, hN⟩ (0 : Fin 2) * 1024 ≤ (i 0).val ∧ (i 0).val < win0_3.index ⟨tv, hN⟩ (0 : Fin 2) * 1024 + 1024
    rw [e0]; show tv / 32 * 1024 ≤ (i 0).val ∧ (i 0).val < tv / 32 * 1024 + 1024; omega
  | ⟨1, _⟩ =>
    show win0_3.index ⟨tv, hN⟩ (1 : Fin 2) * 1024 ≤ (i 1).val ∧ (i 1).val < win0_3.index ⟨tv, hN⟩ (1 : Fin 2) * 1024 + 1024
    rw [e1]; show tv / 8 % 4 * 1024 ≤ (i 1).val ∧ (i 1).val < tv / 8 % 4 * 1024 + 1024; omega

/-- The result array after the run. -/
theorem final (c : Dev nD) : (dats m 0 c).arrAt 3 cfg0.N = (Cert.Spec.G (Blocks.argX m c) (Blocks.argK m c) (Blocks.argW m c) (Blocks.argB m c)) :=
  (dats m 0 c).arrAt_eq_of_cover 3 (Cert.Spec.G (Blocks.argX m c) (Blocks.argK m c) (Blocks.argW m c) (Blocks.argB m c)) (flushed_eq m c) covered

/-- The kernel's run: it terminates with the result array at G of the arguments, the arguments unchanged. -/
theorem run : θ_run defs (onTc (τ := τ) (main (F := Ideal))) ⟨m, fun _ => 0, ρ⟩ fun r => ∀ c : Dev nD,
      r.2.mem ((c : Thread nD τ).loc main_v0) = (Cert.Spec.G (Blocks.argX m c) (Blocks.argK m c) (Blocks.argW m c) (Blocks.argB m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelValue

end
-- ==== Proof.RefValue.lean ====
/-
  The reference computes G.

  Read one operation at a time at an index (r, c): the elementwise product k · w, the contraction of row r of x with
  column c of that product, the bias row broadcast down the rows, the sum, and the maximum with the zero constant.
  That is G's defining expression once the three index functions are written by coordinates.
-/
import proofs.«176659_j11106785427704_2_alg».proof.Proof.Gen.ReferenceIdeal.Read
import proofs.«176659_j11106785427704_2_alg».proof.Proof.Spec

noncomputable section

open Idealize.ShloMosaic Idealize.ShloMosaic.ValueIdx

namespace Cert.ReferenceIdeal.RefValue

open Cert.ReferenceIdeal Cert.ReferenceIdeal.Read

/-- The contraction reads x at (row of the output index, j); -/
theorem lidx_eq (i : S8192x4096.Idx) (j : Fin 4096) :
    lidx_main_v1 i j = ix2 (⟨(i 0).val, idx2_lt0 i⟩ : Fin 8192) j :=
  funext fun a => Fin.ext (by match a with | ⟨0, _⟩ => rfl | ⟨1, _⟩ => rfl)

/-- and the masked weight at (j, column of the output index). -/
theorem ridx_eq (i : S8192x4096.Idx) (j : Fin 4096) :
    ridx_main_v1 i j = ix2 j (⟨(i 1).val, idx2_lt1 i⟩ : Fin 4096) :=
  funext fun a => Fin.ext (by match a with | ⟨0, _⟩ => rfl | ⟨1, _⟩ => rfl)

/-- The broadcast bias reads its one row at the output index's column. -/
theorem bidx_eq (i : S8192x4096.Idx) :
    idx_main_v2 i = ix2 (0 : Fin 1) (⟨(i 1).val, idx2_lt1 i⟩ : Fin 4096) :=
  funext fun a => Fin.ext (by match a with | ⟨0, _⟩ => rfl | ⟨1, _⟩ => rfl)

/-- The reference's result is G of its four arguments. -/
theorem result_eq (x : (⟨S8192x4096, .f32⟩ : BufTy).Contents (Elt Ideal)) (k w : (⟨S4096x4096, .f32⟩ : BufTy).Contents (Elt Ideal))
    (b : (⟨S1x4096, .f32⟩ : BufTy).Contents (Elt Ideal)) :
    val_main_v4 (F := Ideal) x k w b = Cert.Spec.G x k w b := by
  funext i
  rw [val_main_v4_apply, val_main_v3_apply, val_main_v1_apply, val_main_v2_apply, val_main_call0_v0_apply,
    val_main_call0_cst_apply]
  simp only [lidx_eq, ridx_eq, bidx_eq, val_main_v0_apply]
  rfl

end Cert.ReferenceIdeal.RefValue

end
-- ==== Proof.lean ====
/-
  relu(x · (kernel ∘ window) + bias), tiled, equals the same expression computed whole.

  The kernel forms the masked weight kernel ∘ window once, then walks an 8 × 4 × 8 grid: for each [1024, 1024] tile of
  the result it adds up, over the eight blocks of 512 of the contraction axis, the product of a [1024, 512] block of x
  with a [512, 1024] block of the weight, starting from zero, and at the eighth block stores max(sum + bias row, 0). The
  reference multiplies x by the masked weight in one contraction over 4096, adds the bias row and takes the maximum
  with zero. Over the extended reals, with every operation exact and a change of float format the identity, both
  results are, at row r and column c,

      max( Σ_{j < 4096} x[r, j] · (kernel[j, c] · window[j, c]) + bias[0, c] , 0 ),

  because a sum over 4096 consecutive indices is the sum of its eight block sums of 512, which uses only that + is
  commutative and associative: no entry has to be finite, so the finiteness precondition is never opened.

  The three frame claims are the generated frames (the reference's is its run with the result dropped); the kernel's
  idealization rewrote nothing, so it preserves the kernel trivially.
-/
import proofs.«176659_j11106785427704_2_alg».proof.Defs
import proofs.«176659_j11106785427704_2_alg».proof.Proof.Gen.Kernel
import proofs.«176659_j11106785427704_2_alg».proof.Proof.Gen.Kernel.Skeleton
import proofs.«176659_j11106785427704_2_alg».proof.Proof.Gen.Kernel.Launch
import proofs.«176659_j11106785427704_2_alg».proof.Proof.Gen.Kernel.Points
import proofs.«176659_j11106785427704_2_alg».proof.Proof.Gen.Kernel.Frame
import proofs.«176659_j11106785427704_2_alg».proof.Proof.Gen.KernelIdeal
import proofs.«176659_j11106785427704_2_alg».proof.Proof.Gen.KernelIdeal.Skeleton
import proofs.«176659_j11106785427704_2_alg».proof.Proof.Gen.KernelIdeal.Launch
import proofs.«176659_j11106785427704_2_alg».proof.Proof.Gen.KernelIdeal.Points
import proofs.«176659_j11106785427704_2_alg».proof.Proof.Gen.KernelIdeal.Frame
import proofs.«176659_j11106785427704_2_alg».proof.Proof.Gen.ReferenceIdeal
import proofs.«176659_j11106785427704_2_alg».proof.Proof.Gen.KernelIdeal.Value
import proofs.«176659_j11106785427704_2_alg».proof.Proof.Gen.ReferenceIdeal.Run
import proofs.«176659_j11106785427704_2_alg».proof.Proof.Gen.ReferenceIdeal.Read
import proofs.«176659_j11106785427704_2_alg».proof.Proof.Gen.Pre_finite_inputs
import proofs.«176659_j11106785427704_2_alg».proof.Proof.KernelValue
import proofs.«176659_j11106785427704_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From arguments that agree, the kernel's result array ends at G of them (the tiled sum, put back together) and the
    reference's at G of them (read one operation at a time): the same array. -/
theorem algebraic : Cert.algebraic_KernelIdeal_ReferenceIdeal := by
  intro m ρ m' ρ' _ hagree
  refine ⟨fun c => Cert.Spec.G (Cert.KernelIdeal.Blocks.argX m c) (Cert.KernelIdeal.Blocks.argK m c)
    (Cert.KernelIdeal.Blocks.argW m c) (Cert.KernelIdeal.Blocks.argB m c), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
